-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S1024x1024 : Shape := ⟨2, ![1024, 1024]⟩
abbrev S16x2048x2048 : Shape := ⟨3, ![16, 2048, 2048]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S16x2048x1024 .f32) (main_arg1 : FVec F S16x2048x1024 .f32) (main_arg2 : FVec F S1024x1024 .f32) (main_arg3 : IVec S16x2048x2048 32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x2048x1024 .f32 := Host.absf main_arg1
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_c_1 : IVec S_ 1 := constantI S_ 1 1#1
  let main_v7 : IVec S_ 1 := (fun x v => Host.reduce IntOp.andi x v reducesTo_S16x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S16x2048x1024 : Shape := ⟨3, ![16, 2048, 1024]⟩
abbrev S1024x1024 : Shape := ⟨2, ![1024, 1024]⟩
abbrev S16x2048x2048 : Shape := ⟨3, ![16, 2048, 2048]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S256x1024 : Shape := ⟨2, ![256, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x1024, .f32⟩
  | .hbm, ⟨3, _⟩ => ⟨S16x2048x2048, .i32⟩
  | .hbm, ⟨4, _⟩ => ⟨S16x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x2048x1024, .f32⟩
  | .local _ .vmem, ⟨3, _⟩ => ⟨S1x256x2048, .i32⟩
  | .local _ .vmem, ⟨4, _⟩ => ⟨S1x256x2048, .i32⟩
  | .local _ .vmem, ⟨5, _⟩ => ⟨S1024x1024, .f32⟩
  | .local _ .vmem, ⟨6, _⟩ => ⟨S1x256x1024, .f32⟩
  | .local _ .vmem, ⟨7, _⟩ => ⟨S1x256x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x256x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  bitsLt_bf16_f32 : FTy.bits .bf16 < FTy.bits .f32
  shapeCasts_S256x1024_S1x256x1024 : S256x1024.ShapeCasts S1x256x1024
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x2048x1024.size a
  hwx0_0 : ∀ i : grid0.Coords, EltTy.bits .f32 = 32 ∨ (Rect.block (s := S16x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S16x2048x1024.size a
  hwx0_1 : ∀ i : grid0.Coords, EltTy.bits .f32 = 32 ∨ (Rect.block (s := S16x2048x1024) S1x2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S16x2048x2048.size a
  hwx0_2 : ∀ i : grid0.Coords, EltTy.bits .i32 = 32 ∨ (Rect.block (s := S16x2048x2048) S1x256x2048.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S16x2048x1024.size a
  hwx0_4 : ∀ i : grid0.Coords, EltTy.bits .f32 = 32 ∨ (Rect.block (s := S16x2048x1024) S1x256x1024.size (cc0_transform_4 i) (hinb0_4 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg1) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048x1024 : Shape := ⟨3, ![16, 2048, 1024]⟩
abbrev S1024x1024 : Shape := ⟨2, ![1024, 1024]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x1024, .f32⟩
  | .hbm, ⟨3, _⟩ => ⟨S16x2048x2048, .i32⟩
  | .hbm, ⟨4, _⟩ => ⟨S16x2048x1024, .f32⟩
  | .hbm, ⟨5, _⟩ => ⟨S16x2048x2048, .f32⟩
  | .hbm, ⟨6, _⟩ => ⟨S_, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048x1, .f32⟩
  | .hbm, ⟨12, _⟩ => ⟨S16x2048x2048, .f32⟩
  | .hbm, ⟨13, _⟩ => ⟨S16x2048x2048, .f32⟩
  | .hbm, ⟨14, _⟩ => ⟨S16x2048x2048, .f32⟩
  | .hbm, ⟨15, _⟩ => ⟨S_, .f32⟩
  | .hbm, ⟨16, _⟩ => ⟨S16x2048, .f32⟩
  | .hbm, ⟨17, _⟩ => ⟨S16x2048x1, .f32⟩
  | .hbm, ⟨18, _⟩ => ⟨S16x2048x2048, .f32⟩
  | .hbm, ⟨19, _⟩ => ⟨S16x2048x2048, .f32⟩
  | .hbm, ⟨20, _⟩ => ⟨S16x2048x2048, .f32⟩
  | .hbm, ⟨21, _⟩ => ⟨S16x2048x2048, .f32⟩
  | .hbm, ⟨22, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x1024_S1024x1024_S16x2048x1024_2_0_01_1_n_n_wf : DotDims.WF S16x2048x1024 S1024x1024 S16x2048x1024 [2] [0] [0, 1] [1] [] []
  dot_S16x2048x1024_S16x2048x1024_S16x2048x2048_2_2_1_1_0_0_wf : DotDims.WF S16x2048x1024 S16x2048x1024 S16x2048x2048 [2] [2] [1] [1] [0] [0]
  dot_S16x2048x2048_S16x2048x1024_S16x2048x1024_2_1_1_2_0_0_wf : DotDims.WF S16x2048x2048 S16x2048x1024 S16x2048x1024 [2] [1] [1] [2] [0] [0]

variable [Facts₀]

def dot_S16x2048x1024_S1024x1024_S16x2048x1024_2_0_01_1_n_n : DotDims S16x2048x1024 S1024x1024 S16x2048x1024 where
  lhsContracting := [2]
  rhsContracting := [0]
  lhsNonContracting := [0, 1]
  rhsNonContracting := [1]
  lhsBatch := []
  rhsBatch := []
  wf := dot_S16x2048x1024_S1024x1024_S16x2048x1024_2_0_01_1_n_n_wf
def dot_S16x2048x1024_S16x2048x1024_S16x2048x2048_2_2_1_1_0_0 : DotDims S16x2048x1024 S16x2048x1024 S16x2048x2048 where
  lhsContracting := [2]
  rhsContracting := [2]
  lhsNonContracting := [1]
  rhsNonContracting := [1]
  lhsBatch := [0]
  rhsBatch := [0]
  wf := dot_S16x2048x1024_S16x2048x1024_S16x2048x2048_2_2_1_1_0_0_wf
def dot_S16x2048x2048_S16x2048x1024_S16x2048x1024_2_1_1_2_0_0 : DotDims S16x2048x2048 S16x2048x1024 S16x2048x1024 where
  lhsContracting := [2]
  rhsContracting := [1]
  lhsNonContracting := [1]
  rhsNonContracting := [2]
  lhsBatch := [0]
  rhsBatch := [0]
  wf := dot_S16x2048x2048_S16x2048x1024_S16x2048x1024_2_1_1_2_0_0_wf

class Facts : Prop extends Facts₀ where

variable [Facts]
-- ==== Proof.Spec.lean ====
/-
  One query row of masked bilinear attention, on the extended reals.

  A query row `x` (1024 entries) is projected through `W` (1024 × 1024) and scored against the 2048 keys
  `K j` by inner products; the row of scores `s` is shifted by its largest entry, exponentiated,
  normalised by the sum of the exponentials, multiplied entry by entry by the row of the integer mask
  read as numbers, and the resulting weights combine the keys:

      y e = ∑ j, (exp (s j − top s) / ∑ j', exp (s j' − top s)) · mask j · K j e,
      s j = ∑ f, (∑ e, x e · W e f) · K j f,        top s = max over j of s j, from −∞.

  Every operation is the extended reals' own (`Ideal.exp`, `Ideal.div`, sums, `max`): nothing below
  asks the entries to be finite.  `attention` is the whole [16, 2048, 1024] result: entry (b, r, e)
  is row r of batch b against the keys of batch b.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- Entry `f` of the projected query `x · W`. -/
def proj (x : Fin 1024 → EReal) (W : Fin 1024 → Fin 1024 → EReal) (f : Fin 1024) : EReal :=
  ∑ e : Fin 1024, x e * W e f

/-- The score of the projected query against key `j`. -/
def score (x : Fin 1024 → EReal) (W : Fin 1024 → Fin 1024 → EReal) (K : Fin 2048 → Fin 1024 → EReal)
    (j : Fin 2048) : EReal :=
  ∑ f : Fin 1024, proj x W f * K j f

/-- A score row's largest entry: the fold of `max` over the keys from −∞ (the f32 pattern 0xFF800000). -/
def top (s : Fin 2048 → EReal) : EReal :=
  (Finset.univ : Finset (Fin 2048)).fold max (Ideal.ofBits .f32 0xFF800000#32) s

/-- The shifted score, exponentiated. -/
def expo (s : Fin 2048 → EReal) (j : Fin 2048) : EReal := Ideal.exp (s j - top s)

/-- The normaliser: the sum of the exponentials over the keys. -/
def total (s : Fin 2048 → EReal) : EReal := ∑ j : Fin 2048, expo s j

/-- The weight of key `j`: its softmax probability times the mask entry read as a signed integer. -/
def weight (s : Fin 2048 → EReal) (μ : Fin 2048 → BitVec 32) (j : Fin 2048) : EReal :=
  Ideal.div (expo s j) (total s) * (((μ j).toInt : ℝ) : EReal)

/-- Entry `e` of the row's result: the keys combined with the weights of the row's scores. -/
def rowOut (x : Fin 1024 → EReal) (W : Fin 1024 → Fin 1024 → EReal) (K : Fin 2048 → Fin 1024 → EReal)
    (μ : Fin 2048 → BitVec 32) (e : Fin 1024) : EReal :=
  ∑ j : Fin 2048, weight (score x W K) μ j * K j e

/-- The whole result from the four argument arrays `k`, `q` : [16, 2048, 1024], `W` : [1024, 1024] and
    `mask` : [16, 2048, 2048]: entry (b, r, e) is query row (b, r) against the keys of batch b. -/
def attention (k q : (⟨3, ![16, 2048, 1024]⟩ : Shape).Idx → EReal) (W : (⟨2, ![1024, 1024]⟩ : Shape).Idx → EReal)
    (mask : (⟨3, ![16, 2048, 2048]⟩ : Shape).Idx → BitVec 32) : (⟨3, ![16, 2048, 1024]⟩ : Shape).Idx → EReal :=
  fun i => rowOut (fun e => q (ix3 (i 0) (i 1) e)) (fun e f => W (ix2 e f)) (fun j f => k (ix3 (i 0) j f))
    (fun j => mask (ix3 (i 0) (i 1) j)) (i 2)

/-- −∞ is the unit of `max`: the f32 pattern 0xFF800000 denotes the bottom of the extended reals. -/
theorem max_negInf (y : EReal) : max (Ideal.ofBits .f32 0xFF800000#32) y = y := by
  have h : Ideal.ofBits .f32 0xFF800000#32 = ⊥ := by simp [Ideal.ofBits, Ideal.ieee]
  rw [h]; exact max_bot_left y

end Cert.Attn

end
-- ==== Proof.Body.lean ====
/-
  The kernel body's stored value, read at an index of the extended reals.

  At a grid point the body loads a [1, 256, 1024] block `xq` of queries, the whole [1024, 1024] matrix `w`,
  a [1, 2048, 1024] slab `xk` of keys and a [1, 256, 2048] block `xm` of the mask, and stores one
  [1, 256, 1024] block.  Entry (0, r, e) of what it stores is `Cert.Attn.rowOut` of row r of the query
  block, the matrix, the slab's keys and row r of the mask block, at e: the three matrix products into a
  zero accumulator are plain sums over the contracted axis, the lane maximum is a fold of `max` from −∞,
  the lane sum a sum, the keepdims casts and broadcasts only re-read a row's value along the row, and the
  two roundings to bf16 before the last product are the identity on the extended reals.
-/
import proofs.«140148_j455266533863_2_alg».proof.Proof.Gen.KernelIdeal.Skeleton
import proofs.«140148_j455266533863_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx
open Cert.Attn

/-! ## The three contractions -/

/-- queries × matrix: [256, 1024] · [1024, 1024], the left operand's axis 1 against the right's axis 0. -/
abbrev dQW : DotDims S256x1024 S1024x1024 S256x1024 := dot_S256x1024_S1024x1024_S256x1024_1_0_0_1_n_n
/-- projected queries × keys: [256, 1024] · [2048, 1024], both operands' axis 1. -/
abbrev dQK : DotDims S256x1024 S2048x1024 S256x2048 := dot_S256x1024_S2048x1024_S256x2048_1_1_0_0_n_n
/-- weights × keys: [256, 2048] · [2048, 1024], the left operand's axis 1 against the right's axis 0. -/
abbrev dPK : DotDims S256x2048 S2048x1024 S256x1024 := dot_S256x2048_S2048x1024_S256x1024_1_0_0_1_n_n

theorem dQW_lhs0 (i : S256x1024.Idx) (q : dQW.contr.Idx) : (dQW.lhsIdx i q 0).val = (i 0).val := by
  unfold DotDims.lhsIdx
  rw [dif_neg (show ¬(0 : Fin S256x1024.rank) ∈ dQW.lhsBatch by decide), dif_pos (show (0 : Fin S256x1024.rank) ∈ dQW.lhsNonContracting by decide)]
  rfl
theorem dQW_rhs1 (i : S256x1024.Idx) (q : dQW.contr.Idx) : (dQW.rhsIdx i q 1).val = (i 1).val := by
  unfold DotDims.rhsIdx
  rw [dif_neg (show ¬(1 : Fin S1024x1024.rank) ∈ dQW.rhsBatch by decide), dif_pos (show (1 : Fin S1024x1024.rank) ∈ dQW.rhsNonContracting by decide)]
  rfl

/-- The first product into the zero block, at (r, f): the sum over e of A (r, e) · B (e, f). -/
theorem mulQW_at (A : FVec Ideal S256x1024 .f32) (B : FVec Ideal S1024x1024 .f32) (r : Fin 256) (f : Fin 1024) :
    matmul dQW (some .fp32) A B (constant (F := Ideal) S256x1024 .f32 0x00000000#32) (ix2 r f)
      = ∑ e : Fin 1024, A (ix2 r e) * B (ix2 e f) := by
  refine (Ideal.matmul_constant_zero_apply dQW (some .fp32) A B (ix2 r f)).trans ?_
  rw [← Equiv.sum_comp (contrEquiv1 dQW 1024 rfl rfl).symm]
  refine Finset.sum_congr rfl fun k _ => ?_
  have hk := contrEquiv1_symm_val dQW 1024 rfl rfl k
  have el : dQW.lhsIdx (ix2 r f) ((contrEquiv1 dQW 1024 rfl rfl).symm k) = ix2 r k := funext fun a => Fin.ext (by
    match a with
    | ⟨0, _⟩ => exact dQW_lhs0 _ _
    | ⟨1, _⟩ => exact (dQW.lhsIdx_val_of_single rfl _ _).trans hk)
  have er : dQW.rhsIdx (ix2 r f) ((contrEquiv1 dQW 1024 rfl rfl).symm k) = ix2 k f := funext fun a => Fin.ext (by
    match a with
    | ⟨0, _⟩ => exact (dQW.rhsIdx_val_of_single rfl _ _).trans hk
    | ⟨1, _⟩ => exact dQW_rhs1 _ _)
  rw [el, er]

theorem dQK_lhs0 (i : S256x2048.Idx) (q : dQK.contr.Idx) : (dQK.lhsIdx i q 0).val = (i 0).val := by
  unfold DotDims.lhsIdx
  rw [dif_neg (show ¬(0 : Fin S256x1024.rank) ∈ dQK.lhsBatch by decide), dif_pos (show (0 : Fin S256x1024.rank) ∈ dQK.lhsNonContracting by decide)]
  rfl
theorem dQK_rhs0 (i : S256x2048.Idx) (q : dQK.contr.Idx) : (dQK.rhsIdx i q 0).val = (i 1).val := by
  unfold DotDims.rhsIdx
  rw [dif_neg (show ¬(0 : Fin S2048x1024.rank) ∈ dQK.rhsBatch by decide), dif_pos (show (0 : Fin S2048x1024.rank) ∈ dQK.rhsNonContracting by decide)]
  rfl

/-- The second product into the zero block, at (r, j): the sum over f of A (r, f) · B (j, f). -/
theorem mulQK_at (A : FVec Ideal S256x1024 .f32) (B : FVec Ideal S2048x1024 .f32) (r : Fin 256) (j : Fin 2048) :
    matmul dQK (some .fp32) A B (constant (F := Ideal) S256x2048 .f32 0x00000000#32) (ix2 r j)
      = ∑ f : Fin 1024, A (ix2 r f) * B (ix2 j f) := by
  refine (Ideal.matmul_constant_zero_apply dQK (some .fp32) A B (ix2 r j)).trans ?_
  rw [← Equiv.sum_comp (contrEquiv1 dQK 1024 rfl rfl).symm]
  refine Finset.sum_congr rfl fun k _ => ?_
  have hk := contrEquiv1_symm_val dQK 1024 rfl rfl k
  have el : dQK.lhsIdx (ix2 r j) ((contrEquiv1 dQK 1024 rfl rfl).symm k) = ix2 r k := funext fun a => Fin.ext (by
    match a with
    | ⟨0, _⟩ => exact dQK_lhs0 _ _
    | ⟨1, _⟩ => exact (dQK.lhsIdx_val_of_single rfl _ _).trans hk)
  have er : dQK.rhsIdx (ix2 r j) ((contrEquiv1 dQK 1024 rfl rfl).symm k) = ix2 j k := funext fun a => Fin.ext (by
    match a with
    | ⟨0, _⟩ => exact dQK_rhs0 _ _
    | ⟨1, _⟩ => exact (dQK.rhsIdx_val_of_single rfl _ _).trans hk)
  rw [el, er]

theorem dPK_lhs0 (i : S256x1024.Idx) (q : dPK.contr.Idx) : (dPK.lhsIdx i q 0).val = (i 0).val := by
  unfold DotDims.lhsIdx
  rw [dif_neg (show ¬(0 : Fin S256x2048.rank) ∈ dPK.lhsBatch by decide), dif_pos (show (0 : Fin S256x2048.rank) ∈ dPK.lhsNonContracting by decide)]
  rfl
theorem dPK_rhs1 (i : S256x1024.Idx) (q : dPK.contr.Idx) : (dPK.rhsIdx i q 1).val = (i 1).val := by
  unfold DotDims.rhsIdx
  rw [dif_neg (show ¬(1 : Fin S2048x1024.rank) ∈ dPK.rhsBatch by decide), dif_pos (show (1 : Fin S2048x1024.rank) ∈ dPK.rhsNonContracting by decide)]
  rfl

/-- The last product into the zero block, at (r, e): the sum over j of A (r, j) · B (j, e); its operands may be of
    any float formats, each an extended real. -/
theorem mulPK_at {φ₁ φ₂ : FTy} (A : FVec Ideal S256x2048 φ₁) (B : FVec Ideal S2048x1024 φ₂) (r : Fin 256) (e : Fin 1024) :
    matmul dPK none A B (constant (F := Ideal) S256x1024 .f32 0x00000000#32) (ix2 r e)
      = ∑ j : Fin 2048, A (ix2 r j) * B (ix2 j e) := by
  refine (Ideal.matmul_constant_zero_apply dPK none A B (ix2 r e)).trans ?_
  rw [← Equiv.sum_comp (contrEquiv1 dPK 2048 rfl rfl).symm]
  refine Finset.sum_congr rfl fun k _ => ?_
  have hk := contrEquiv1_symm_val dPK 2048 rfl rfl k
  have el : dPK.lhsIdx (ix2 r e) ((contrEquiv1 dPK 2048 rfl rfl).symm k) = ix2 r k := funext fun a => Fin.ext (by
    match a with
    | ⟨0, _⟩ => exact dPK_lhs0 _ _
    | ⟨1, _⟩ => exact (dPK.lhsIdx_val_of_single rfl _ _).trans hk)
  have er : dPK.rhsIdx (ix2 r e) ((contrEquiv1 dPK 2048 rfl rfl).symm k) = ix2 k e := funext fun a => Fin.ext (by
    match a with
    | ⟨0, _⟩ => exact (dPK.rhsIdx_val_of_single rfl _ _).trans hk
    | ⟨1, _⟩ => exact dPK_rhs1 _ _)
  rw [el, er]

/-! ## Along a row: the lane reductions and their spreading back -/

/-- Row r of a reduced [256] vector, with lane k put back, is entry (r, k) of the [256, 2048] block. -/
theorem lift_row (r : Fin 256) (k : Fin (S256x2048.size 1)) :
    reduces_S256x2048_S256.lift (ix1 r) k = ix2 r (⟨k.val, k.isLt⟩ : Fin 2048) := by
  funext c; apply Fin.ext
  match c with
  | ⟨0, _⟩ => rfl
  | ⟨1, _⟩ => rfl

/-- The lane maximum of a [256, 2048] block, from −∞. -/
abbrev rowMaxV (S : FVec Ideal S256x2048 .f32) : FVec Ideal S256 .f32 :=
  multiReduction .maximumf [1] S256 S 0xFF800000#32 reduces_S256x2048_S256 (.inl rfl) rfl
/-- The lane sum of a [256, 2048] block, from the zero word. -/
abbrev rowSumV (E : FVec Ideal S256x2048 .f32) : FVec Ideal S256 .f32 :=
  multiReduction .add [1] S256 E 0x00000000#32 reduces_S256x2048_S256 (.inl rfl) rfl
/-- A [256] vector as a column, spread along every row of the [256, 2048] block. -/
abbrev spread (w : FVec Ideal S256 .f32) : FVec Ideal S256x2048 .f32 :=
  broadcastTo S256x2048 (shapeCast S256x1 w shapeCasts_S256_S256x1) broadcasts_S256x1_S256x2048

/-- At row r the lane maximum is the largest entry of the row. -/
theorem rowMaxV_at (S : FVec Ideal S256x2048 .f32) (r : Fin 256) : rowMaxV S (ix1 r) = top (fun j => S (ix2 r j)) := by
  refine (Ideal.multiReduction_maximumf_single S 0xFF800000#32 reduces_S256x2048_S256 (.inl rfl) rfl (ix1 r)).trans ?_
  have hf : (S ∘ reduces_S256x2048_S256.lift (ix1 r)) = fun j : Fin 2048 => S (ix2 r j) :=
    funext fun k => congrArg S (lift_row r k)
  rw [hf]
  rfl

/-- At row r the lane sum is the sum of the row. -/
theorem rowSumV_at (E : FVec Ideal S256x2048 .f32) (r : Fin 256) : rowSumV E (ix1 r) = ∑ j : Fin 2048, E (ix2 r j) := by
  refine (Ideal.multiReduction_add_single E 0x00000000#32 reduces_S256x2048_S256 (.inl rfl) rfl (ix1 r)).trans ?_
  exact Finset.sum_congr rfl fun k _ => congrArg E (lift_row r k)

/-- The column spread along the rows reads, at (r, j), the vector's entry r. -/
theorem spread_at (w : FVec Ideal S256 .f32) (r : Fin 256) (j : Fin 2048) : spread w (ix2 r j) = w (ix1 r) := by
  refine (broadcastTo_apply _ broadcasts_S256x1_S256x2048 (ix2 r j) (ix2 r (0 : Fin 1)) fun a => ?_).trans ?_
  · match a with
    | ⟨0, _⟩ => show r.val = if (256 : Nat) = 1 then 0 else r.val; rw [if_neg (by decide)]
    | ⟨1, _⟩ => show 0 = if (1 : Nat) = 1 then 0 else j.val; rw [if_pos rfl]
  · refine shapeCast_apply w shapeCasts_S256_S256x1 (ix2 r (0 : Fin 1)) (ix1 r) ?_
    rw [Shape.rowMajor_val_one, Shape.rowMajor_val_two]
    show r.val = r.val * 1 + 0
    omega

/-! ## The softmax weights of a score block -/

/-- The shifted exponentials of a score block. -/
abbrev expV (S : FVec Ideal S256x2048 .f32) : FVec Ideal S256x2048 .f32 := exp (subf S (spread (rowMaxV S)))

/-- The masked probabilities of a score block `S` and a mask block `xm`. -/
abbrev probV (S : FVec Ideal S256x2048 .f32) (xm : Vec Ideal S1x256x2048 .i32) : FVec Ideal S256x2048 .f32 :=
  mulf (divf (expV S) (spread (rowSumV (expV S)))) (sitofp .f32 (shapeCast S256x2048 xm shapeCasts_S1x256x2048_S256x2048))

theorem expV_at (S : FVec Ideal S256x2048 .f32) (r : Fin 256) (j : Fin 2048) :
    expV S (ix2 r j) = expo (fun j => S (ix2 r j)) j := by
  show Ideal.exp (S (ix2 r j) - spread (rowMaxV S) (ix2 r j)) = _
  rw [spread_at, rowMaxV_at]
  rfl

theorem probV_at (S : FVec Ideal S256x2048 .f32) (xm : Vec Ideal S1x256x2048 .i32) (r : Fin 256) (j : Fin 2048) :
    probV S xm (ix2 r j) = weight (fun j => S (ix2 r j)) (fun j => xm (ix3 (0 : Fin 1) r j)) j := by
  have hT : spread (rowSumV (expV S)) (ix2 r j) = total (fun j => S (ix2 r j)) :=
    (spread_at _ r j).trans ((rowSumV_at _ r).trans (Finset.sum_congr rfl fun j' _ => expV_at S r j'))
  have hμ : shapeCast S256x2048 xm shapeCasts_S1x256x2048_S256x2048 (ix2 r j) = xm (ix3 (0 : Fin 1) r j) :=
    shapeCast_1ab_ab_apply xm _ r j
  show Ideal.div (expV S (ix2 r j)) (spread (rowSumV (expV S)) (ix2 r j))
      * (((shapeCast S256x2048 xm shapeCasts_S1x256x2048_S256x2048 (ix2 r j)).toInt : ℝ) : EReal) = _
  rw [expV_at, hT, hμ]
  rfl

/-! ## The stored block -/

/-- The query block as a matrix. -/
abbrev queryV (xq : Vec Ideal S1x256x1024 .f32) : FVec Ideal S256x1024 .f32 := shapeCast S256x1024 xq shapeCasts_S1x256x1024_S256x1024
/-- The key slab as a matrix. -/
abbrev keysV (xk : Vec Ideal S1x2048x1024 .f32) : FVec Ideal S2048x1024 .f32 := shapeCast S2048x1024 xk shapeCasts_S1x2048x1024_S2048x1024
/-- The score block: (queries · matrix) · keysᵀ, each product into a zero block. -/
abbrev scoreV (xq : Vec Ideal S1x256x1024 .f32) (w : FVec Ideal S1024x1024 .f32) (xk : Vec Ideal S1x2048x1024 .f32) : FVec Ideal S256x2048 .f32 :=
  matmul dQK (some .fp32) (matmul dQW (some .fp32) (queryV xq) w (constant S256x1024 .f32 0x00000000#32)) (keysV xk)
    (constant S256x2048 .f32 0x00000000#32)

/-- The body's stored value is the last product of the masked probabilities (rounded to bf16) with the keys
    (rounded to bf16), as a [1, 256, 1024] block. -/
theorem pay_eq (xq : Vec Ideal S1x256x1024 .f32) (w : FVec Ideal S1024x1024 .f32) (xk : Vec Ideal S1x2048x1024 .f32) (xm : Vec Ideal S1x256x2048 .i32) :
    k0_pay1 xq w xk xm = shapeCast S1x256x1024 (matmul dPK none (truncf .bf16 (probV (scoreV xq w xk) xm) bitsLt_bf16_f32)
      (truncf .bf16 (keysV xk) bitsLt_bf16_f32) (constant S256x1024 .f32 0x00000000#32)) shapeCasts_S256x1024_S1x256x1024 := rfl

theorem queryV_at (xq : Vec Ideal S1x256x1024 .f32) (r : Fin 256) (e : Fin 1024) : queryV xq (ix2 r e) = xq (ix3 (0 : Fin 1) r e) :=
  shapeCast_1ab_ab_apply xq _ r e
theorem keysV_at (xk : Vec Ideal S1x2048x1024 .f32) (j : Fin 2048) (f : Fin 1024) : keysV xk (ix2 j f) = xk (ix3 (0 : Fin 1) j f) :=
  shapeCast_1ab_ab_apply xk _ j f

/-- Row r of the score block is the score row of query row r against the slab's keys. -/
theorem scoreV_at (xq : Vec Ideal S1x256x1024 .f32) (w : FVec Ideal S1024x1024 .f32) (xk : Vec Ideal S1x2048x1024 .f32) (r : Fin 256) (j : Fin 2048) :
    scoreV xq w xk (ix2 r j)
      = score (fun e => xq (ix3 (0 : Fin 1) r e)) (fun e f => w (ix2 e f)) (fun j f => xk (ix3 (0 : Fin 1) j f)) j := by
  refine (mulQK_at _ _ r j).trans ?_
  unfold score
  refine Finset.sum_congr rfl fun f _ => ?_
  rw [keysV_at, mulQW_at]
  unfold proj
  refine congrArg (· * _) (Finset.sum_congr rfl fun e _ => ?_)
  rw [queryV_at]

/-- THE STORED BLOCK AT (0, r, e): the attention row of query row r, the matrix, the slab's keys and mask row r. -/
theorem pay_at (xq : Vec Ideal S1x256x1024 .f32) (w : FVec Ideal S1024x1024 .f32) (xk : Vec Ideal S1x2048x1024 .f32) (xm : Vec Ideal S1x256x2048 .i32)
    (u : Fin 1) (r : Fin 256) (e : Fin 1024) :
    k0_pay1 xq w xk xm (ix3 u r e)
      = rowOut (fun e => xq (ix3 (0 : Fin 1) r e)) (fun e f => w (ix2 e f)) (fun j f => xk (ix3 (0 : Fin 1) j f))
          (fun j => xm (ix3 (0 : Fin 1) r j)) e := by
  rw [pay_eq]
  refine (shapeCast_ab_1ab_apply _ _ u r e).trans ?_
  refine (mulPK_at _ _ r e).trans ?_
  unfold rowOut
  have hs : (fun j => scoreV xq w xk (ix2 r j))
      = score (fun e => xq (ix3 (0 : Fin 1) r e)) (fun e f => w (ix2 e f)) (fun j f => xk (ix3 (0 : Fin 1) j f)) :=
    funext fun j => scoreV_at xq w xk r j
  refine Finset.sum_congr rfl fun j _ => ?_
  show probV (scoreV xq w xk) xm (ix2 r j) * keysV xk (ix2 j e) = _
  rw [probV_at, keysV_at, hs]

end Cert.KernelIdeal.Body

end
-- ==== Proof.Blocks.lean ====
/-
  From the blocks each grid point writes back to the whole result array.

  The grid has 16 × 8 points; point t = (b, i) reads query rows 256·i … 256·i + 255 of batch b, all 2048 keys
  of batch b, the whole matrix and the same rows of batch b's mask, and writes back rows 256·i … 256·i + 255 of
  batch b of the result.  Read through its block, what the point writes is the attention function of the four
  argument arrays restricted to those rows (`flushed_eq`): every entry of a block is an attention row of
  rows of the arguments (`block_eq`, over the stored value read at an index).  The 128 blocks tile the
  [16, 2048, 1024] array — row (b, R) lies in the block of point 8·b + R / 256 — so after the run the array
  IS the attention function of the arguments (`result_array`, `run`).
-/
import proofs.«140148_j455266533863_2_alg».proof.Proof.Gen.KernelIdeal.Value
import proofs.«140148_j455266533863_2_alg».proof.Proof.Body
import Idealize.ShloMosaic.Lib.Pipeline.Value

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.Attn

/-! ## One stored entry as an attention row of the arrays -/

/-- If the loaded blocks are rows of the argument arrays — the query and mask blocks rows `r0 + r` of batch
    `b`, the key slab batch `b`, the matrix itself — then the stored block's entry `y` is the attention
    function of the arrays at the index `i` with batch `b`, row `r0 + y 1` and column `y 2`. -/
theorem block_eq (k q : S16x2048x1024.Idx → EReal) (W : S1024x1024.Idx → EReal) (mask : S16x2048x2048.Idx → BitVec 32)
    (xq : Vec Ideal S1x256x1024 .f32) (w : FVec Ideal S1024x1024 .f32) (xk : Vec Ideal S1x2048x1024 .f32) (xm : Vec Ideal S1x256x2048 .i32)
    (b : Fin 16) (r0 : Nat)
    (hq : ∀ (r : Fin 256) (e : Fin 1024) (R : Fin 2048), R.val = r0 + r.val → xq (ix3 (0 : Fin 1) r e) = q (ix3 b R e))
    (hw : ∀ (e f : Fin 1024), w (ix2 e f) = W (ix2 e f))
    (hk : ∀ (j : Fin 2048) (f : Fin 1024), xk (ix3 (0 : Fin 1) j f) = k (ix3 b j f))
    (hm : ∀ (r : Fin 256) (j : Fin 2048) (R : Fin 2048), R.val = r0 + r.val → xm (ix3 (0 : Fin 1) r j) = mask (ix3 b R j))
    (y : S1x256x1024.Idx) (i : S16x2048x1024.Idx)
    (h0 : (i 0).val = b.val) (h1 : (i 1).val = r0 + (y 1).val) (h2 : (i 2).val = (y 2).val) :
    k0_pay1 xq w xk xm y = attention k q W mask i := by
  obtain ⟨u, r, e, rfl⟩ : ∃ (u : Fin 1) (r : Fin 256) (e : Fin 1024), y = ix3 u r e := ⟨y 0, y 1, y 2, eq_ix3 y⟩
  obtain ⟨b', R, e', rfl⟩ : ∃ (b' : Fin 16) (R : Fin 2048) (e' : Fin 1024), i = ix3 b' R e' := ⟨i 0, i 1, i 2, eq_ix3 i⟩
  obtain rfl : b' = b := Fin.ext h0
  obtain rfl : e' = e := Fin.ext h2
  have hR : R.val = r0 + r.val := h1
  rw [Body.pay_at]
  show _ = rowOut (fun e => q (ix3 b' R e)) (fun e f => W (ix2 e f)) (fun j f => k (ix3 b' j f)) (fun j => mask (ix3 b' R j)) e'
  have e1 : (fun e => xq (ix3 (0 : Fin 1) r e)) = fun e => q (ix3 b' R e) := funext fun e => hq r e R hR
  have e2 : (fun e f => w (ix2 e f)) = fun e f => W (ix2 e f) := funext fun e => funext fun f => hw e f
  have e3 : (fun j f => xk (ix3 (0 : Fin 1) j f)) = fun j f => k (ix3 b' j f) := funext fun j => funext fun f => hk j f
  have e4 : (fun j => xm (ix3 (0 : Fin 1) r j)) = fun j => mask (ix3 b' R j) := funext fun j => hm r j R hR
  rw [e1, e2, e3, e4]

/-! ## The grid's index maps -/

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the 128 points: point t is (t / 8, t % 8); the query, mask and result
    blocks sit at (t / 8, t % 8, 0), the key slab at (t / 8, 0, 0), the matrix at (0, 0). -/
theorem idx_facts : ∀ t : Fin cfg0.N,
    win0_4.index t (0 : Fin 3) = t.val / 8 ∧ win0_4.index t (1 : Fin 3) = t.val % 8 ∧ win0_4.index t (2 : Fin 3) = 0
    ∧ win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = t.val % 8 ∧ win0_2.index t (2 : Fin 3) = 0
    ∧ win0_3.index t (0 : Fin 2) = 0 ∧ win0_3.index t (1 : Fin 2) = 0 :=
  (by decide +kernel : ∀ t : Fin grid0.N, _)

/-! ## What a point writes back -/

/-- WHAT POINT `t` WRITES BACK is block `t` of the attention function of the argument arrays. -/
theorem flushed_eq (c : Dev nD) (t : Fin cfg0.N) :
    (dats m 0 c).flushed 4 t = ((cfg0.win 4).blk t).view.read (Elt Ideal)
      (attention (V m c main_arg0) (V m c main_arg1) (V m c main_arg2) (V m c main_arg3)) := by
  rw [Value.flushed4]
  unfold out0_4
  rw [View.canon_unit_zero hz3]
  simp only [View.ld_unit_zero (S := S1x256x1024) hz3, View.ld_unit_zero (S := S1024x1024) hz2,
    View.ld_unit_zero (S := S1x2048x1024) hz3, View.ld_unit_zero (S := S1x256x2048) hz3]
  have hN : cfg0.N = 128 := N_0
  have ht := t.isLt
  obtain ⟨o0, o1, o2, q0, q1, q2, k0, k1, k2, m0, m1, m2, w0, w1⟩ := idx_facts t
  funext y
  show k0_pay1 (iblk m c 0 t) (iblk m c 3 t) (iblk m c 1 t) (iblk m c 2 t) y
    = attention (V m c main_arg0) (V m c main_arg1) (V m c main_arg2) (V m c main_arg3) (((cfg0.win 4).blk t).view.emb y)
  have hy0 : (y 0).val < 1 := (y 0).isLt
  refine block_eq _ _ _ _ _ _ _ _ ⟨t.val / 8, by omega⟩ (t.val % 8 * 256) ?_ ?_ ?_ ?_ y _ ?_ ?_ ?_
  · intro r e R hR
    show V m c main_arg1 (((cfg0.win 0).blk t).view.emb (ix3 (0 : Fin 1) r e)) = V m c main_arg1 (ix3 _ R e)
    refine congrArg (V m c main_arg1) (funext fun a => Fin.ext ?_)
    match a with
    | ⟨0, _⟩ => show win0_0.index t (0 : Fin 3) * 1 + 1 * 0 = t.val / 8; omega
    | ⟨1, _⟩ => show win0_0.index t (1 : Fin 3) * 256 + 1 * r.val = R.val; omega
    | ⟨2, _⟩ => show win0_0.index t (2 : Fin 3) * 1024 + 1 * e.val = e.val; omega
  · intro e f
    show V m c main_arg2 (((cfg0.win 3).blk t).view.emb (ix2 e f)) = V m c main_arg2 (ix2 e f)
    refine congrArg (V m c main_arg2) (funext fun a => Fin.ext ?_)
    match a with
    | ⟨0, _⟩ => show win0_3.index t (0 : Fin 2) * 1024 + 1 * e.val = e.val; omega
    | ⟨1, _⟩ => show win0_3.index t (1 : Fin 2) * 1024 + 1 * f.val = f.val; omega
  · intro j f
    show V m c main_arg0 (((cfg0.win 1).blk t).view.emb (ix3 (0 : Fin 1) j f)) = V m c main_arg0 (ix3 _ j f)
    refine congrArg (V m c main_arg0) (funext fun a => Fin.ext ?_)
    match a with
    | ⟨0, _⟩ => show win0_1.index t (0 : Fin 3) * 1 + 1 * 0 = t.val / 8; omega
    | ⟨1, _⟩ => show win0_1.index t (1 : Fin 3) * 2048 + 1 * j.val = j.val; omega
    | ⟨2, _⟩ => show win0_1.index t (2 : Fin 3) * 1024 + 1 * f.val = f.val; omega
  · intro r j R hR
    show V m c main_arg3 (((cfg0.win 2).blk t).view.emb (ix3 (0 : Fin 1) r j)) = V m c main_arg3 (ix3 _ R j)
    refine congrArg (V m c main_arg3) (funext fun a => Fin.ext ?_)
    match a with
    | ⟨0, _⟩ => show win0_2.index t (0 : Fin 3) * 1 + 1 * 0 = t.val / 8; omega
    | ⟨1, _⟩ => show win0_2.index t (1 : Fin 3) * 256 + 1 * r.val = R.val; omega
    | ⟨2, _⟩ => show win0_2.index t (2 : Fin 3) * 2048 + 1 * j.val = j.val; omega
  · show win0_4.index t (0 : Fin 3) * 1 + 1 * (y 0).val = t.val / 8; omega
  · show win0_4.index t (1 : Fin 3) * 256 + 1 * (y 1).val = t.val % 8 * 256 + (y 1).val; omega
  · show win0_4.index t (2 : Fin 3) * 1024 + 1 * (y 2).val = (y 2).val; omega

/-! ## The blocks tile the array -/

/-- An index of the result array is in point `t`'s block iff each coordinate is in the block's range on its axis. -/
theorem mem_blk (t : Fin cfg0.N) (i : S16x2048x1024.Idx) :
    i ∈ ((cfg0.win 4).blk t).view.set ↔ ∀ a : Fin 3, win0_4.index t a * S1x256x1024.size a ≤ (i a).val
      ∧ (i a).val < win0_4.index t a * S1x256x1024.size a + S1x256x1024.size a := by
  show i ∈ ((View.whole main_v0).slice (win0_4.rect t)).set ↔ _
  rw [View.set_slice_whole, Rect.mem_set_unit]
  exact Iff.rfl

/-- Every index (b, R, e) of the result lies in the block of point 8·b + R / 256, which writes back. -/
theorem cover (i : S16x2048x1024.Idx) :
    ∃ t : Fin cfg0.N, (cfg0.win 4).flush t = true ∧ i ∈ ((cfg0.win 4).blk t).view.set := by
  have hN : cfg0.N = 128 := N_0
  have h0 : (i 0).val < 16 := (i 0).isLt
  have h1 : (i 1).val < 2048 := (i 1).isLt
  have h2 : (i 2).val < 1024 := (i 2).isLt
  obtain ⟨t, tv⟩ : ∃ t : Fin cfg0.N, t.val = (i 0).val * 8 + (i 1).val / 256 := ⟨⟨(i 0).val * 8 + (i 1).val / 256, by omega⟩, rfl⟩
  obtain ⟨o0, o1, o2, -⟩ := idx_facts t
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 1024 ≤ (i 2).val ∧ (i 2).val < win0_4.index t (2 : Fin 3) * 1024 + 1024; omega

/-! ## The array after the run -/

/-- THE RESULT ARRAY after the run is the attention function of the argument arrays as launched. -/
theorem result_array (c : Dev nD) :
    (dats m 0 c).arrAt 4 cfg0.N = attention (m ((c : Thread nD τ).loc main_arg0)) (m ((c : Thread nD τ).loc main_arg1))
      (m ((c : Thread nD τ).loc main_arg2)) (m ((c : Thread nD τ).loc main_arg3)) :=
  (dats m 0 c).arrAt_eq_of_cover 4 _ (fun t _ => flushed_eq m c t) cover

/-- The kernel's run, read: the result at the attention function of the arguments, the arguments unchanged. -/
theorem run : θ_run defs (onTc (τ := τ) (main (F := Ideal))) ⟨m, fun _ => 0, ρ⟩ fun r => ∀ c : Dev nD,
      r.2.mem ((c : Thread nD τ).loc main_v0) = attention (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result_array m c), (h c).2⟩) (Value.run_blocks m ρ)

end Cert.KernelIdeal.Blocks

end
-- ==== Proof.RefIsSpec.lean ====
/-
  The reference program's result, read at the extended reals, is `Cert.Attn.attention` of its four
  arguments: its operations, one at a time and index by index, are the row function's stages — the two
  contractions (`proj`, `score`), the row maximum as a fold of `max` from −∞ (the extra `max` against a
  −∞ splat changes nothing: −∞ is the unit of `max`), the shifted exponentials, their sum from the zero
  word, the quotient, the product with the mask read as integers, and the last contraction with the keys.
-/
import proofs.«140148_j455266533863_2_alg».proof.Proof.Gen.ReferenceIdeal.Read
import proofs.«140148_j455266533863_2_alg».proof.Proof.Spec
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Cert.Attn

variable (x0 x1 : (⟨S16x2048x1024, .f32⟩ : BufTy).Contents (Elt Ideal)) (x2 : (⟨S1024x1024, .f32⟩ : BufTy).Contents (Elt Ideal))
  (x3 : (⟨S16x2048x2048, .i32⟩ : BufTy).Contents (Elt Ideal))

/-- Query row (b, r) of the second argument. -/
abbrev qrow (b : Fin 16) (r : Fin 2048) : Fin 1024 → EReal := fun e => x1 (ix3 b r e)
/-- The third argument as a matrix. -/
abbrev wmat : Fin 1024 → Fin 1024 → EReal := fun e f => x2 (ix2 e f)
/-- The keys of batch b: the first argument's b-th slab. -/
abbrev keys (b : Fin 16) : Fin 2048 → Fin 1024 → EReal := fun j f => x0 (ix3 b j f)
/-- Mask row (b, r) of the fourth argument. -/
abbrev mrow (b : Fin 16) (r : Fin 2048) : Fin 2048 → BitVec 32 := fun j => x3 (ix3 b r j)

/-- The first contraction at (b, r, f): the projected query's entry f. -/
theorem v0_at (b : Fin 16) (r : Fin 2048) (f : Fin 1024) :
    val_main_v0 (F := Ideal) x1 x2 (ix3 b r f) = proj (qrow x1 b r) (wmat x2) f := by
  rw [val_main_v0_apply]
  unfold proj
  refine Finset.sum_congr rfl fun k _ => ?_
  have el : lidx_main_v0 (ix3 b r f) k = ix3 b r k :=
    funext fun a => Fin.ext (by match a with | ⟨0, _⟩ => rfl | ⟨1, _⟩ => rfl | ⟨2, _⟩ => rfl)
  have er : ridx_main_v0 (ix3 b r f) k = ix2 k f :=
    funext fun a => Fin.ext (by match a with | ⟨0, _⟩ => rfl | ⟨1, _⟩ => rfl)
  rw [el, er]

/-- The second contraction at (b, r, j): the score of row (b, r) against key j of batch b. -/
theorem v1_at (b : Fin 16) (r j : Fin 2048) :
    val_main_v1 (F := Ideal) x0 x1 x2 (ix3 b r j) = score (qrow x1 b r) (wmat x2) (keys x0 b) j := by
  rw [val_main_v1_apply]
  unfold score
  refine Finset.sum_congr rfl fun k _ => ?_
  have el : lidx_main_v1 (ix3 b r j) k = ix3 b r k :=
    funext fun a => Fin.ext (by match a with | ⟨0, _⟩ => rfl | ⟨1, _⟩ => rfl | ⟨2, _⟩ => rfl)
  have er : ridx_main_v1 (ix3 b r j) k = ix3 b j k :=
    funext fun a => Fin.ext (by match a with | ⟨0, _⟩ => rfl | ⟨1, _⟩ => rfl | ⟨2, _⟩ => rfl)
  rw [el, er, v0_at]

/-- The reduced index (b, r) with key j put back on the reduced axis is (b, r, j). -/
theorem lift_at (h : S16x2048x2048.Reduces [2] S16x2048) (b : Fin 16) (r : Fin 2048) (k : Fin (S16x2048x2048.size 2)) :
    h.lift (ix2 b r) k = ix3 b r (⟨k.val, k.isLt⟩ : Fin 2048) := by
  funext c; apply Fin.ext
  match c with
  | ⟨0, _⟩ => rfl
  | ⟨1, _⟩ => rfl
  | ⟨2, _⟩ => rfl

/-- The row maximum at (b, r): the fold of `max` over the row's scores from −∞. -/
theorem v2_at (b : Fin 16) (r : Fin 2048) :
    val_main_v2 (F := Ideal) x0 x1 x2 (ix2 b r) = top (score (qrow x1 b r) (wmat x2) (keys x0 b)) := by
  have h : S16x2048x2048.Reduces [2] S16x2048 := by decide
  unfold val_main_v2
  rw [Host.reduce_eq_fold_single FloatOps.maximumf _ _ reducesTo_S16x2048x2048_S16x2048_d2 h h_S_]
  unfold top
  have hf : (val_main_v1 (F := Ideal) x0 x1 x2 ∘ h.lift (ix2 b r)) = score (qrow x1 b r) (wmat x2) (keys x0 b) :=
    funext fun k => by
      show val_main_v1 (F := Ideal) x0 x1 x2 (h.lift (ix2 b r) k) = _
      rw [lift_at h b r k]
      exact v1_at x0 x1 x2 b r _
  rw [hf]
  rfl

/-- The maximum against the −∞ splat leaves the row maximum. -/
theorem v4_at (b : Fin 16) (r : Fin 2048) :
    val_main_v4 (F := Ideal) x0 x1 x2 (ix2 b r) = top (score (qrow x1 b r) (wmat x2) (keys x0 b)) := by
  rw [val_main_v4_apply, val_main_v3_apply, val_main_cst_0_apply, v2_at]
  exact max_negInf _

/-- The shifted exponential at (b, r, j). -/
theorem v8_at (b : Fin 16) (r j : Fin 2048) :
    val_main_v8 (F := Ideal) x0 x1 x2 (ix3 b r j) = expo (score (qrow x1 b r) (wmat x2) (keys x0 b)) j := by
  have e6 : idx_main_v5 (idx_main_v6 (ix3 b r j)) = ix2 b r :=
    funext fun a => Fin.ext (by match a with | ⟨0, _⟩ => rfl | ⟨1, _⟩ => rfl)
  rw [val_main_v8_apply, val_main_v7_apply, val_main_v6_apply, val_main_v5_apply, e6, v4_at, v1_at]
  rfl

/-- The normaliser at (b, r): zero plus the sum of the row's exponentials. -/
theorem v9_at (b : Fin 16) (r : Fin 2048) :
    val_main_v9 (F := Ideal) x0 x1 x2 (ix2 b r) = total (score (qrow x1 b r) (wmat x2) (keys x0 b)) := by
  rw [val_main_v9_apply, val_main_cst_1_apply]
  show Ideal.ofBits .f32 0x00000000#32 + _ = _
  rw [Ideal.ofBits_zero_f32, zero_add]
  unfold total
  refine Finset.sum_congr rfl fun k _ => ?_
  have e9 : idx_main_v9 (ix2 b r) k = ix3 b r k :=
    funext fun a => Fin.ext (by match a with | ⟨0, _⟩ => rfl | ⟨1, _⟩ => rfl | ⟨2, _⟩ => rfl)
  rw [e9, v8_at]

/-- The masked probability at (b, r, j). -/
theorem v14_at (b : Fin 16) (r j : Fin 2048) :
    val_main_v14 (F := Ideal) x0 x1 x2 x3 (ix3 b r j) = weight (score (qrow x1 b r) (wmat x2) (keys x0 b)) (mrow x3 b r) j := by
  have e11 : idx_main_v10 (idx_main_v11 (ix3 b r j)) = ix2 b r :=
    funext fun a => Fin.ext (by match a with | ⟨0, _⟩ => rfl | ⟨1, _⟩ => rfl)
  rw [val_main_v14_apply, val_main_v12_apply, val_main_v13_apply, val_main_v11_apply, val_main_v10_apply, e11, v9_at, v8_at]
  rfl

/-- The reference's result is the attention function of its arguments. -/
theorem result_eq : val_main_v15 (F := Ideal) x0 x1 x2 x3 = attention x0 x1 x2 x3 := by
  funext i
  obtain ⟨b, r, e, rfl⟩ : ∃ (b : Fin 16) (r : Fin 2048) (e : Fin 1024), i = ix3 b r e := ⟨i 0, i 1, i 2, eq_ix3 i⟩
  rw [val_main_v15_apply]
  show _ = rowOut (qrow x1 b r) (wmat x2) (keys x0 b) (mrow x3 b r) e
  unfold rowOut
  refine Finset.sum_congr rfl fun k _ => ?_
  have el : lidx_main_v15 (ix3 b r e) k = ix3 b r k :=
    funext fun a => Fin.ext (by match a with | ⟨0, _⟩ => rfl | ⟨1, _⟩ => rfl | ⟨2, _⟩ => rfl)
  have er : ridx_main_v15 (ix3 b r e) k = ix3 b k e :=
    funext fun a => Fin.ext (by match a with | ⟨0, _⟩ => rfl | ⟨1, _⟩ => rfl | ⟨2, _⟩ => rfl)
  rw [el, er, v14_at]

end Cert.ReferenceIdeal.RefValue

end
-- ==== Proof.lean ====
/-
  The certificate of the bilinear masked-attention kernel against its jnp reference.

  Both programs compute, for every batch b and query row r, the row function `Cert.Attn.rowOut`
  (Proof/Spec.lean): the query row projected through the matrix, scored against the batch's keys, the scores
  shifted by their maximum, exponentiated and normalised, multiplied by the mask row and combined with the
  keys.  The kernel does it 256 rows at a time on a 16 × 8 grid (Proof/Body.lean reads one stored block at
  an index; Proof/Blocks.lean assembles the 128 blocks into the whole array), the reference as nineteen
  whole-array operations (Proof/RefIsSpec.lean reads them one at a time).  On the extended reals the two are
  the same function operation by operation — a matrix product into a zero accumulator is the host's
  contraction, a lane reduction the host's reduce, a rounding to bf16 the identity — and the reference's one
  extra operation, a maximum against −∞, is the identity because −∞ is the unit of `max`.  No step uses that
  the inputs are finite.

  The three frames are the generated ones (the reference's is its generated run with the result dropped);
  the idealization rewrote nothing, so `preserves` is `True`.
-/
import proofs.«140148_j455266533863_2_alg».proof.Defs
import proofs.«140148_j455266533863_2_alg».proof.Proof.Gen.Kernel
import proofs.«140148_j455266533863_2_alg».proof.Proof.Gen.Kernel.Skeleton
import proofs.«140148_j455266533863_2_alg».proof.Proof.Gen.Kernel.Launch
import proofs.«140148_j455266533863_2_alg».proof.Proof.Gen.Kernel.Points
import proofs.«140148_j455266533863_2_alg».proof.Proof.Gen.Kernel.Frame
import proofs.«140148_j455266533863_2_alg».proof.Proof.Gen.KernelIdeal
import proofs.«140148_j455266533863_2_alg».proof.Proof.Gen.KernelIdeal.Skeleton
import proofs.«140148_j455266533863_2_alg».proof.Proof.Gen.KernelIdeal.Launch
import proofs.«140148_j455266533863_2_alg».proof.Proof.Gen.KernelIdeal.Points
import proofs.«140148_j455266533863_2_alg».proof.Proof.Gen.KernelIdeal.Frame
import proofs.«140148_j455266533863_2_alg».proof.Proof.Gen.ReferenceIdeal
import proofs.«140148_j455266533863_2_alg».proof.Proof.Gen.Pre_finite_inputs
import proofs.«140148_j455266533863_2_alg».proof.Proof.Gen.KernelIdeal.Value
import proofs.«140148_j455266533863_2_alg».proof.Proof.Gen.ReferenceIdeal.Run
import proofs.«140148_j455266533863_2_alg».proof.Proof.Gen.ReferenceIdeal.Read
import proofs.«140148_j455266533863_2_alg».proof.Proof.Blocks
import proofs.«140148_j455266533863_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals the kernel's result array ends at the attention function of its arguments (the 128 blocks
    assembled) and the reference's at its nineteen operations' term of arguments that agree — which is the same
    attention function. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v15_eq _ _ _ _).trans (Cert.ReferenceIdeal.RefValue.result_eq _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
